-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : FVec F S16384x512 .f32) (main_arg2 : FVec F S16384 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S16384x512 : Shape := ⟨2, ![16384, 512]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S2048x512 : Shape := ⟨2, ![2048, 512]⟩
abbrev S1024x512 : Shape := ⟨2, ![1024, 512]⟩
abbrev S1x1024 : Shape := ⟨2, ![1, 1024]⟩
abbrev S2048x1 : Shape := ⟨2, ![2048, 1]⟩
abbrev S512x1024 : Shape := ⟨2, ![512, 1024]⟩
abbrev S2048x1024 : Shape := ⟨2, ![2048, 1024]⟩
abbrev S2048 : Shape := ⟨1, ![2048]⟩

abbrev nBuf : Space → Nat
  | .hbm => 25
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x512, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S1x16384, .f32⟩
  | .hbm, ⟨12, _⟩ => ⟨S16384x512, .bf16⟩
  | .hbm, ⟨13, _⟩ => ⟨S16384x512, .bf16⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1, .f32⟩
  | .local _ .vmem, ⟨7, _⟩ => ⟨S2048x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  shapeCasts_S16384_S1x16384 : S16384.ShapeCasts S1x16384
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  shapeCasts_S2048x1_S2048x1 : S2048x1.ShapeCasts S2048x1
  reducesTo_S16384x1_S_d0_1 : S16384x1.ReducesTo [0, 1] S_
  reducesTo_S16384_S_d0 : S16384.ReducesTo [0] S_
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .bf16 = 32 ∨ (Rect.block (s := S16384x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v7) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S512x16384 : Shape := ⟨2, ![512, 16384]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x512, .f32⟩
  | .hbm, ⟨8, _⟩ => ⟨S_, .f32⟩
  | .hbm, ⟨9, _⟩ => ⟨S16384, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S512x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x512_S512x16384_1_0 : S16384x512.Transposes [1, 0] S512x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x512_S512x16384_S16384x16384_1_0_0_1_n_n_wf : DotDims.WF S16384x512 S512x16384 S16384x16384 [1] [0] [0] [1] [] []

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf

class Facts : Prop extends Facts₀ where

variable [Facts]
-- ==== Proof.Cases.lean ====
/-
  What one run of the body leaves in the output block, in each of its two cases.

  The body first tests whether the point is the first of its row of the grid (column coordinate 0). If so it stores
  `+∞` over the whole output block, and what it then reads back from the block is that `+∞`; if not, what it reads is
  what the point before left there. In both cases its one remaining store covers the block with
  `min (what it read) (the tile's row minima)` — the second payload of the body, applied to the three input blocks and
  to what was read.
-/
import proofs.«171918_j26010321944637_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A point that is not the first of its grid row: the block ends at the payload of the input blocks and of what the
    block held. -/
theorem out_B (c : Dev nD) (i : grid0.Coords) (a2 : Memref sig .tc .vmem S2048x512 .bf16) (h2 : a2.IsWhole)
    (a3 : Memref sig .tc .vmem S1024x512 .bf16) (h3 : a3.IsWhole) (a4 : Memref sig .tc .vmem S1x1024 .f32) (h4 : a4.IsWhole)
    (a5 : Memref sig .tc .vmem S2048x1 .f32) (h5 : a5.IsWhole) (hc : ¬cond0_0 i)
    (x0 : Vec F S2048x512 .bf16) (x1 : Vec F S1024x512 .bf16) (x2 : Vec F S1x1024 .f32) (xo : Vec F S2048x1 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz]
  simp only [View.readAt_eq_ld, h2.read_unread, h3.read_unread, h4.read_unread, h5.read_unread,
    View.ld_unit_zero (S := S2048x512) hz, View.ld_unit_zero (S := S1024x512) hz, View.ld_unit_zero (S := S1x1024) hz,
    View.ld_unit_zero (S := S2048x1) hz]

/-- The first point of a grid row: the same payload, of the input blocks and of the `+∞` block it has just stored. -/
theorem out_A (c : Dev nD) (i : grid0.Coords) (a2 : Memref sig .tc .vmem S2048x512 .bf16) (h2 : a2.IsWhole)
    (a3 : Memref sig .tc .vmem S1024x512 .bf16) (h3 : a3.IsWhole) (a4 : Memref sig .tc .vmem S1x1024 .f32) (h4 : a4.IsWhole)
    (a5 : Memref sig .tc .vmem S2048x1 .f32) (h5 : a5.IsWhole) (hc : cond0_0 i)
    (x0 : Vec F S2048x512 .bf16) (x1 : Vec F S1024x512 .bf16) (x2 : Vec F S1x1024 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S2048x1) hz, View.readCov_unit_zero (S := S2048x1) _ hz]
  simp only [View.readAt_eq_ld, h2.read_unread, h3.read_unread, h4.read_unread,
    View.ld_unit_zero (S := S2048x512) hz, View.ld_unit_zero (S := S1024x512) hz, View.ld_unit_zero (S := S1x1024) hz]

end Cert.KernelIdeal.Cases

end
-- ==== Proof.TileCost.lean ====
/-
  One tile of the kernel, at one row.

  At a grid point the body holds a block `x` of 2048 rows of the first argument, a block `y` of 1024 rows of the
  second, and the matching 1024 entries `b` of the bias row. It forms the tile
      cost r l = b l − 2 · ∑_d x r d · y l d        (r < 2048, l < 1024)
  — the matrix product taken against the TRANSPOSE of `y`, so the contraction runs over the 512 columns of both —,
  takes each row's minimum over the 1024 columns from `+∞`, and stores the smaller of that and what the output
  block held: `pay2_at`. Read at the ideal values, where a change of float format is the identity, the lane
  minimum is a fold of `min` from `⊤` and the matrix product into a zero accumulator is the plain sum.
-/
import proofs.«171918_j26010321944637_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileCost

open Idealize.ShloMosaic Idealize.ShloMosaic.ValueIdx Cert.KernelIdeal Cert.KernelIdeal.Gen

/-- The literal `2.0`. -/
abbrev two : EReal := Ideal.ofBits .f32 0x40000000#32

/-- The dimension record of the tile's matrix product: [2048, 512] × [512, 1024]. -/
abbrev D := dot_S2048x512_S512x1024_S2048x1024_1_0_0_1_n_n

/-- One entry of the tile: the bias of column `l` minus twice the inner product of row `r` of `x` with row `l` of `y`. -/
def cost (x : FVec Ideal S2048x512 .bf16) (y : FVec Ideal S1024x512 .bf16) (b : FVec Ideal S1x1024 .f32)
    (r : Fin 2048) (l : Fin 1024) : EReal :=
  b (ix2 (0 : Fin 1) l) - two * ∑ d : Fin 512, x (ix2 r d) * y (ix2 l d)

/-! ## The operands' indices of the matrix product -/

theorem lhs_0 (i : S2048x1024.Idx) (q : D.contr.Idx) : (D.lhsIdx i q 0).val = (i 0).val := by
  unfold DotDims.lhsIdx
  rw [dif_neg (show ¬(0 : Fin S2048x512.rank) ∈ D.lhsBatch by decide), dif_pos (show (0 : Fin S2048x512.rank) ∈ D.lhsNonContracting by decide)]
  rfl
theorem lhs_1 (i : S2048x1024.Idx) (q : D.contr.Idx) : (D.lhsIdx i q 1).val = (q ⟨0, by decide⟩).val :=
  D.lhsIdx_val_of_single rfl i q
theorem rhs_0 (i : S2048x1024.Idx) (q : D.contr.Idx) : (D.rhsIdx i q 0).val = (q ⟨0, by decide⟩).val :=
  D.rhsIdx_val_of_single rfl i q
theorem rhs_1 (i : S2048x1024.Idx) (q : D.contr.Idx) : (D.rhsIdx i q 1).val = (i 1).val := by
  unfold DotDims.rhsIdx
  rw [dif_neg (show ¬(1 : Fin S512x1024.rank) ∈ D.rhsBatch by decide), dif_pos (show (1 : Fin S512x1024.rank) ∈ D.rhsNonContracting by decide)]
  rfl

/-- The matrix product into a zero accumulator, at `(r, l)`: the sum over the 512 contracted coordinates. -/
theorem matmul_at (a : FVec Ideal S2048x512 .bf16) (w : FVec Ideal S512x1024 .bf16) (r : Fin 2048) (l : Fin 1024) :
    matmul D none a w (constant S2048x1024 .f32 0x00000000#32) (ix2 r l) = ∑ d : Fin 512, a (ix2 r d) * w (ix2 d l) := by
  refine (Ideal.matmul_constant_zero_apply D none a w (ix2 r l)).trans ?_
  rw [← Equiv.sum_comp (ValueIdx.contrEquiv1 D 512 rfl rfl).symm]
  refine Finset.sum_congr rfl fun k _ => ?_
  have hk := ValueIdx.contrEquiv1_symm_val D 512 rfl rfl k
  have el : D.lhsIdx (ix2 r l) ((ValueIdx.contrEquiv1 D 512 rfl rfl).symm k) = ix2 r k := funext fun c => Fin.ext (by
    match c with
    | ⟨0, _⟩ => exact lhs_0 _ _
    | ⟨1, _⟩ => exact (lhs_1 _ _).trans hk)
  have er : D.rhsIdx (ix2 r l) ((ValueIdx.contrEquiv1 D 512 rfl rfl).symm k) = ix2 k l := funext fun c => Fin.ext (by
    match c with
    | ⟨0, _⟩ => exact (rhs_0 _ _).trans hk
    | ⟨1, _⟩ => exact rhs_1 _ _)
  rw [el, er]

/-- The tile at `(r, l)`. -/
theorem tile_at (x : FVec Ideal S2048x512 .bf16) (y : FVec Ideal S1024x512 .bf16) (b : FVec Ideal S1x1024 .f32)
    (r : Fin 2048) (l : Fin 1024) :
    subf (broadcastTo S2048x1024 (shapeCast S1x1024 b shapeCasts_S1x1024_S1x1024) broadcasts_S1x1024_S2048x1024)
      (mulf (broadcast S2048x1024 (Scalar.ofBits (F := Ideal) .f32 0x40000000#32))
        (matmul D none (shapeCast S2048x512 x shapeCasts_S2048x512_S2048x512)
          (transpose S512x1024 [1, 0] (shapeCast S1024x512 y shapeCasts_S1024x512_S1024x512) transposes_S1024x512_p1_0_S512x1024)
          (constant S2048x1024 .f32 0x00000000#32))) (ix2 r l)
      = cost x y b r l := by
  rw [shapeCast_self, shapeCast_self, shapeCast_self]
  show broadcastTo S2048x1024 b broadcasts_S1x1024_S2048x1024 (ix2 r l)
      - two * matmul D none x (transpose S512x1024 [1, 0] y transposes_S1024x512_p1_0_S512x1024) (constant S2048x1024 .f32 0x00000000#32) (ix2 r l) = _
  rw [broadcastTo_1b_ab_apply, matmul_at]
  unfold cost
  refine congrArg (fun s => b (ix2 (0 : Fin 1) l) - two * s) (Finset.sum_congr rfl fun d _ => ?_)
  rw [transpose_ix2_apply]

/-- A row's minimum over the 1024 lanes, from `+∞`: the fold of `min` from `⊤`. -/
theorem laneMin_at (src : FVec Ideal S2048x1024 .f32) (h : S2048x1024.Reduces [1] S2048) (hφ : FKind.Formats .f32)
    (hacc : (0x7F800000#32 : BitVec 32) = FKind.minimumf.neutral .f32 hφ) (r : Fin 2048) :
    multiReduction .minimumf [1] S2048 src 0x7F800000#32 h hφ hacc (ix1 r)
      = (Finset.univ : Finset (Fin 1024)).fold min ⊤ (fun l => src (ix2 r l)) := by
  refine (multiReduction_minimumf_eq_fold src _ h hφ hacc (ix1 r)).trans ?_
  refine (h.fold_filter_drop_single _ _ src (ix1 r)).trans ?_
  have e : (src ∘ h.lift (ix1 r)) = fun l : Fin 1024 => src (ix2 r l) :=
    funext fun l => congrArg src (funext fun c => Fin.ext (by
      match c with
      | ⟨0, _⟩ => rfl
      | ⟨1, _⟩ => rfl))
  have eI : (FloatOps.ofBits (F := Ideal) .f32 0x7F800000#32) = (⊤ : EReal) := by simp [Ideal.ofBits, Ideal.ieee]
  rw [e, eI]
  rfl

/-- A column `[2048]` cast to `[2048, 1]` reads, at `(r, u)`, the operand at `r`. -/
theorem column_at {α : Type} (v : S2048.Idx → α) (h : S2048.ShapeCasts S2048x1) (r : Fin 2048) (u : Fin 1) :
    shapeCast S2048x1 v h (ix2 r u) = v (ix1 r) :=
  shapeCast_apply v h _ _ (by
    have hu : u.val = 0 := by omega
    rw [Shape.rowMajor_val_two, Shape.rowMajor_val_one]
    show r.val = r.val * 1 + u.val
    omega)

/-- THE BODY'S STORE at row `r`: the smaller of what the output block held and the tile's row minimum. -/
theorem pay2_at (x : FVec Ideal S2048x512 .bf16) (y : FVec Ideal S1024x512 .bf16) (b : FVec Ideal S1x1024 .f32)
    (o : FVec Ideal S2048x1 .f32) (r : Fin 2048) (u : Fin 1) :
    k0_pay2 (F := Ideal) x y b o (ix2 r u) = min (o (ix2 r u)) ((Finset.univ : Finset (Fin 1024)).fold min ⊤ (cost x y b r)) := by
  unfold k0_pay2
  refine (minimumf_apply _ _ _).trans ?_
  refine congrArg₂ min ?_ ?_
  · exact congrFun (shapeCast_self o _) _
  · refine (column_at _ _ r u).trans ?_
    refine (laneMin_at _ _ _ _ r).trans ?_
    exact congrArg (Finset.fold min ⊤ · Finset.univ) (funext fun l => tile_at x y b r l)

end Cert.KernelIdeal.TileCost

end
-- ==== Proof.RowMin.lean ====
/-
  Minima over the extended reals, as the two programs take them.

  One program takes, for each row, the minimum over ALL columns of a cost that has the row's own
  term inside; the other leaves that term out, takes the minimum over the columns a block at a
  time (each block's minimum folded into a running one that starts at `⊤`), and adds the row's
  term afterwards. Nothing here speaks of a program: the statements are about `min`, `+` and
  finite folds on `EReal`.

  * `MinBelow f n v`: `v` is the minimum from `⊤` of `f` over the indices below `n`, said by its
    universal property (`z ≤ v` iff `z` is below every such `f j`). It starts at `⊤`
    (`minBelow_zero`), a further block of columns extends it (`MinBelow.step`), and over all
    indices it is the fold of `min` (`MinBelow.eq_fold`).
  * Adding a term that is not `⊥` commutes with a fold of `min` from `⊤` (`fold_min_add`): addition
    is monotone, so it commutes with `min`, and `x + ⊤ = ⊤` unless `x = ⊥`.
  * A sum of squares is not `⊥` (`sum_sq_ne_bot`): a square of an extended real is nonnegative,
    the two infinities included.
  * The two costs differ by the row's term, by associativity and commutativity of `+` alone
    (`cost_rearrange`); so no finiteness of the inputs is needed.
-/
import Idealize.ShloMosaic.PureOps.Ideal
import Idealize.ShloMosaic.PureOps.Ideal.Laws

noncomputable section

namespace Cert.RowMin

/-- A square of an extended real is nonnegative: `(±∞)² = ⊤`. -/
theorem mul_self_nonneg (x : EReal) : 0 ≤ x * x := by
  rcases le_total 0 x with h | h
  · exact mul_nonneg h h
  · have h' : 0 ≤ -x := EReal.neg_nonneg.2 h
    have := mul_nonneg h' h'
    rwa [neg_mul_neg] at this

/-- A sum of squares, from zero, is not `⊥`. -/
theorem sum_sq_ne_bot {n : ℕ} (f g : Fin n → EReal) (hfg : f = g) : (0 : EReal) + ∑ k, f k * g k ≠ ⊥ := by
  subst hfg
  rw [zero_add]
  exact ne_of_gt (lt_of_lt_of_le EReal.bot_lt_zero (Finset.sum_nonneg fun k _ => mul_self_nonneg (f k)))

/-- Addition commutes with `min` (it is monotone). -/
theorem add_min (x a b : EReal) : x + min a b = min (x + a) (x + b) :=
  Monotone.map_min (f := fun y => x + y) (fun _ _ h => add_le_add_right h x)

/-- Adding `x ≠ ⊥` commutes with a fold of `min` from `⊤`. -/
theorem fold_min_add {ι : Type*} (s : Finset ι) (f : ι → EReal) (x : EReal) (hx : x ≠ ⊥) :
    s.fold min ⊤ (fun j => x + f j) = x + s.fold min ⊤ f := by
  have h := Finset.fold_hom (op := min) (op' := min) (b := (⊤ : EReal)) (f := f) (s := s) (m := fun y => x + y)
    (fun a b => add_min x a b)
  rw [← h, EReal.add_top_of_ne_bot hx]

/-- The cost with the row's term `a` inside is `a` plus the cost without it. -/
theorem cost_rearrange (a b c d : EReal) : ((a + b) - c) - d = a + ((b - d) - c) := by
  rw [sub_eq_add_neg, sub_eq_add_neg, sub_eq_add_neg, sub_eq_add_neg]
  ac_rfl

/-- `v` is the minimum, from `⊤`, of `f` over the indices below `n`. -/
def MinBelow {N : ℕ} (f : Fin N → EReal) (n : ℕ) (v : EReal) : Prop :=
  ∀ z, z ≤ v ↔ ∀ j : Fin N, j.val < n → z ≤ f j

theorem minBelow_zero {N : ℕ} (f : Fin N → EReal) : MinBelow f 0 ⊤ :=
  fun _ => ⟨fun _ j hj => absurd hj (Nat.not_lt_zero _), fun _ => le_top⟩

/-- A block of `K` further columns, its own minimum taken from `⊤`, extends the running minimum. -/
theorem MinBelow.step {N K n : ℕ} {f : Fin N → EReal} {v : EReal} (h : MinBelow f n v) (hN : n + K ≤ N)
    (g : Fin K → EReal) (hg : ∀ l : Fin K, g l = f ⟨n + l.val, by have := l.isLt; omega⟩) :
    MinBelow f (n + K) (min v (Finset.univ.fold min ⊤ g)) := by
  intro z
  rw [le_min_iff, h z, Finset.le_fold_min]
  constructor
  · rintro ⟨h1, -, h2⟩ j hj
    by_cases hjn : j.val < n
    · exact h1 j hjn
    · have h3 := h2 ⟨j.val - n, by omega⟩ (Finset.mem_univ _)
      rw [hg] at h3
      have e : (⟨n + (j.val - n), by omega⟩ : Fin N) = j := Fin.ext (by simp only; omega)
      rwa [e] at h3
  · intro h'
    refine ⟨fun j hj => h' j (by omega), le_top, fun l _ => ?_⟩
    rw [hg]
    exact h' _ (by have := l.isLt; simp only; omega)

/-- Over all the indices it is the fold of `min` from `⊤`. -/
theorem MinBelow.eq_fold {N : ℕ} {f : Fin N → EReal} {v : EReal} (h : MinBelow f N v) :
    v = Finset.univ.fold min ⊤ f :=
  eq_of_forall_le_iff fun z => by
    rw [h z, Finset.le_fold_min]
    exact ⟨fun h' => ⟨le_top, fun j _ => h' j j.isLt⟩, fun h' j _ => h'.2 j (Finset.mem_univ _)⟩

/-- THE LAW that joins the two programs: the minimum of the costs with the row's term `sx` inside is the minimum
    of the costs without it, plus `sx` — for `sx ≠ ⊥`. -/
theorem row_law {N : ℕ} (sx : EReal) (hsx : sx ≠ ⊥) (kc rc : Fin N → EReal) (h : ∀ j, rc j = sx + kc j) :
    Finset.univ.fold min ⊤ rc = Finset.univ.fold min ⊤ kc + sx := by
  rw [show rc = fun j => sx + kc j from funext h, fold_min_add _ _ _ hsx, add_comm]

end Cert.RowMin

end
-- ==== Proof.RunningMin.lean ====
/-
  The output block, point by point, and the array the region leaves.

  The grid is 8 × 16, row-major: point `t` works on rows `2048·(t / 16) …` of the first operand and on columns
  `1024·(t % 16) …` of the second operand and of the bias row; the output block of a grid row stays in place over its
  16 points and is written back after the last. For the arrays `X`, `Y`, `B` the region finds, write
      kcost i j = B j − 2 · ∑_d X i d · Y j d.
  After point `t` the output block holds, at row `r`, the minimum from `⊤` of `kcost (2048·(t/16) + r) j` over the
  columns `j < 1024·(t % 16 + 1)` (`running`, by induction on the point: the first point of a grid row starts from
  the `+∞` it stores, every other point from what the point before left, and the tile at the point IS the next
  1024 columns of `kcost`, `cost_at`). So what is written back after the last point of a grid row is the minimum over
  all 16384 columns, and the array ends holding `rowMin`, every row's minimum of `kcost` (`final`).
-/
import proofs.«171918_j26010321944637_2_alg».proof.Proof.Cases
import proofs.«171918_j26010321944637_2_alg».proof.Proof.TileCost
import proofs.«171918_j26010321944637_2_alg».proof.Proof.RowMin

noncomputable section

open Idealize.ShloMosaic Idealize.ShloMosaic.TcCoe Idealize.SL.Sem
open Idealize.ShloMosaic.Pipeline (Dat)

namespace Cert.KernelIdeal.RunningMin

open Cert.KernelIdeal Cert.KernelIdeal.Gen Idealize.ShloMosaic.ValueIdx Cert.RowMin

/-- The cost the kernel minimizes, over whole arrays: the bias of column `j` minus twice the inner product of row `i`
    of `X` with row `j` of `Y`. -/
def kcost (X Y : FVec Ideal S16384x512 .bf16) (B : FVec Ideal S1x16384 .f32) (i j : Fin 16384) : EReal :=
  B (ix2 (0 : Fin 1) j) - TileCost.two * ∑ d : Fin 512, X (ix2 i d) * Y (ix2 j d)

/-- Every row's minimum of the cost over all columns, from `⊤`: what the region's result array ends holding. -/
def rowMin (X Y : FVec Ideal S16384x512 .bf16) (B : FVec Ideal S1x16384 .f32) : FVec Ideal S16384x1 .f32 :=
  fun i => (Finset.univ : Finset (Fin 16384)).fold min ⊤ (kcost X Y B ⟨(i 0).val, (i 0).isLt⟩)

variable (m : (ℓ : Loc nD τ sig) → Buf (Elt Ideal) ℓ)

/-- The printed index maps over the grid: point `t` is at grid row `t / 16`, grid column `t % 16`. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = t.val / 16 ∧ win0_3.index t (1 : Fin 2) = 0 :=
  (by decide +kernel : ∀ t : Fin grid0.N, _)

/-- The array row that row `r` of the blocks at point `t` is. -/
def row (t : Fin cfg0.N) (r : Fin 2048) : Fin 16384 := ⟨t.val / 16 * 2048 + r.val, by
  have hN : t.val < 128 := lt_of_lt_of_eq t.isLt (show cfg0.N = 128 from N_0)
  have := r.isLt
  omega⟩

/-- The array column that lane `l` of the blocks at point `t` is. -/
def col (t : Fin cfg0.N) (l : Fin 1024) : Fin 16384 := ⟨t.val % 16 * 1024 + l.val, by
  have := l.isLt
  omega⟩

/-! ## The input blocks at a point, read off the arrays -/

theorem iblk0_at (c : Dev nD) (t : Fin cfg0.N) (r : Fin 2048) (d : Fin 512) :
    (iblk m c 0 t : Vec Ideal S2048x512 .bf16) (ix2 r d) = V m c main_v7 (ix2 (row t r) d) := by
  have hi := idx_facts t
  unfold iblk
  rw [View.read_apply]
  show V m c main_v7 _ = V m c main_v7 _
  refine congrArg (V m c main_v7) (funext fun a => Fin.ext ?_)
  match a with
  | ⟨0, _⟩ => show win0_0.index t (0 : Fin 2) * 2048 + 1 * r.val = t.val / 16 * 2048 + r.val; rw [hi.1]; omega
  | ⟨1, _⟩ => show win0_0.index t (1 : Fin 2) * 512 + 1 * d.val = d.val; rw [hi.2.1]; omega

theorem iblk1_at (c : Dev nD) (t : Fin cfg0.N) (l : Fin 1024) (d : Fin 512) :
    (iblk m c 1 t : Vec Ideal S1024x512 .bf16) (ix2 l d) = V m c main_v8 (ix2 (col t l) d) := by
  have hi := idx_facts t
  unfold iblk
  rw [View.read_apply]
  show V m c main_v8 _ = V m c main_v8 _
  refine congrArg (V m c main_v8) (funext fun a => Fin.ext ?_)
  match a with
  | ⟨0, _⟩ => show win0_1.index t (0 : Fin 2) * 1024 + 1 * l.val = t.val % 16 * 1024 + l.val; rw [hi.2.2.1]; omega
  | ⟨1, _⟩ => show win0_1.index t (1 : Fin 2) * 512 + 1 * d.val = d.val; rw [hi.2.2.2.1]; omega

theorem iblk2_at (c : Dev nD) (t : Fin cfg0.N) (l : Fin 1024) :
    (iblk m c 2 t : Vec Ideal S1x1024 .f32) (ix2 (0 : Fin 1) l) = V m c main_v6 (ix2 (0 : Fin 1) (col t l)) := by
  have hi := idx_facts t
  unfold iblk
  rw [View.read_apply]
  show V m c main_v6 _ = V m c main_v6 _
  refine congrArg (V m c main_v6) (funext fun a => Fin.ext ?_)
  match a with
  | ⟨0, _⟩ => show win0_2.index t (0 : Fin 2) * 1 + 1 * 0 = 0; rw [hi.2.2.2.2.1]
  | ⟨1, _⟩ => show win0_2.index t (1 : Fin 2) * 1024 + 1 * l.val = t.val % 16 * 1024 + l.val; rw [hi.2.2.2.2.2.1]; omega

/-- The tile at point `t` is `kcost` at the point's rows and columns. -/
theorem cost_at (c : Dev nD) (t : Fin cfg0.N) (r : Fin 2048) (l : Fin 1024) :
    TileCost.cost (iblk m c 0 t) (iblk m c 1 t) (iblk m c 2 t) r l
      = kcost (V m c main_v7) (V m c main_v8) (V m c main_v6) (row t r) (col t l) := by
  unfold TileCost.cost kcost
  exact congrArg₂ (fun a s => a - TileCost.two * s) (iblk2_at m c t l)
    (Finset.sum_congr rfl fun d _ => congrArg₂ (fun a b => a * b) (iblk0_at m c t r d) (iblk1_at m c t l d))

/-! ## One point, then all of them -/

/-- One point: if the block held the minimum over the columns before the point's, the body leaves the minimum over
    those and the point's own. -/
theorem point_step (c : Dev nD) (t : Fin cfg0.N) (r : Fin 2048) (u : Fin 1) (o : FVec Ideal S2048x1 .f32)
    (ho : MinBelow (kcost (V m c main_v7) (V m c main_v8) (V m c main_v6) (row t r)) (t.val % 16 * 1024) (o (ix2 r u))) :
    MinBelow (kcost (V m c main_v7) (V m c main_v8) (V m c main_v6) (row t r)) ((t.val % 16 + 1) * 1024)
      (k0_pay2 (F := Ideal) (iblk m c 0 t) (iblk m c 1 t) (iblk m c 2 t) o (ix2 r u)) := by
  rw [TileCost.pay2_at (iblk m c 0 t) (iblk m c 1 t) (iblk m c 2 t) o r u]
  have h := ho.step (K := 1024) (by omega) (TileCost.cost (iblk m c 0 t) (iblk m c 1 t) (iblk m c 2 t) r)
    (fun l => cost_at m c t r l)
  rwa [show (t.val % 16 + 1) * 1024 = t.val % 16 * 1024 + 1024 by omega]

/-- The block of `+∞` the first point of a grid row stores reads `⊤`. -/
theorem pay1_at (i : S2048x1.Idx) : k0_pay1 (F := Ideal) i = (⊤ : EReal) := by
  show Ideal.ofBits .f32 0x7F800000#32 = ⊤
  simp [Ideal.ofBits, Ideal.ieee]

/-- THE RUNNING MINIMUM: after point `n` the output block holds, at row `r`, the minimum of the cost over the columns
    of the points of its grid row so far. -/
theorem running (c : Dev nD) : ∀ (n : ℕ) (hn : n < cfg0.N) (r : Fin 2048) (u : Fin 1),
    MinBelow (kcost (V m c main_v7) (V m c main_v8) (V m c main_v6) (row ⟨n, hn⟩ r)) ((n % 16 + 1) * 1024)
      ((outsAt0 m c n hn : Vec Ideal S2048x1 .f32) (ix2 r u))
  | 0, hn, r, u => by
    rw [outsAt0_A m c ⟨0, hn⟩ rfl, Cases.out_A]
    refine point_step m c ⟨0, hn⟩ r u _ ?_
    rw [pay1_at]
    exact minBelow_zero _
  | n + 1, hn, r, u => by
    have hN : n + 1 < 128 := lt_of_lt_of_eq hn (show cfg0.N = 128 from N_0)
    by_cases h0 : (n + 1) % 16 = 0
    · rw [outsAt0_A m c ⟨n + 1, hn⟩ h0, Cases.out_A]
      refine point_step m c ⟨n + 1, hn⟩ r u _ ?_
      rw [pay1_at]
      show MinBelow _ ((n + 1) % 16 * 1024) ⊤
      rw [h0]
      exact minBelow_zero _
    · rw [outsAt0_B m c ⟨n + 1, hn⟩ h0, Cases.out_B]
      refine point_step m c ⟨n + 1, hn⟩ r u _ ?_
      have ih := running c n (Nat.lt_of_succ_lt hn) r u
      have e1 : row ⟨n, Nat.lt_of_succ_lt hn⟩ r = row ⟨n + 1, hn⟩ r := Fin.ext (by simp only [row]; omega)
      have e2 : (n % 16 + 1) * 1024 = (n + 1) % 16 * 1024 := by omega
      rw [e1, e2] at ih
      exact ih

/-! ## What is written back, and the array -/

/-- The last point of a grid row writes back that row block of `rowMin`. -/
theorem flushed_eq (c : Dev nD) (t : Fin cfg0.N) (hf : (cfg0.win 3).flush t = true) :
    (dats m 0 c).flushed 3 t
      = ((cfg0.win 3).blk t).view.read (Elt Ideal) (rowMin (V m c main_v7) (V m c main_v8) (V m c main_v6)) := by
  have h15 : t.val % 16 = 15 := (flush0_3 t).mp hf
  show (cfg0.win 3).cut (grid0.coords t) ((dats m 0 c).after 3 t) = _
  rw [after0_3]
  funext y
  have hy0 : (y 0).val < 2048 := (y 0).isLt
  have hy1 : (y 1).val < 1 := (y 1).isLt
  have hrun := running m c t.val t.isLt ⟨(y 0).val, hy0⟩ ⟨(y 1).val, hy1⟩
  rw [show (t.val % 16 + 1) * 1024 = 16384 by omega] at hrun
  have hL : (cfg0.win 3).cut (grid0.coords t) (outsAt0 m c t.val t.isLt) y
      = (outsAt0 m c t.val t.isLt : Vec Ideal S2048x1 .f32) (ix2 ⟨(y 0).val, hy0⟩ ⟨(y 1).val, hy1⟩) :=
    congrArg (outsAt0 m c t.val t.isLt : Vec Ideal S2048x1 .f32) (funext fun a => Fin.ext (by
      match a with
      | ⟨0, _⟩ => rfl
      | ⟨1, _⟩ => rfl))
  refine hL.trans ?_
  rw [hrun.eq_fold, View.read_apply]
  unfold rowMin
  have e : row ⟨t.val, t.isLt⟩ ⟨(y 0).val, hy0⟩
      = ⟨((((cfg0.win 3).blk t).view.emb y) 0).val, ((((cfg0.win 3).blk t).view.emb y) 0).isLt⟩ := Fin.ext (by
    show t.val / 16 * 2048 + (y 0).val = win0_3.index t (0 : Fin 2) * 2048 + 1 * (y 0).val
    rw [(idx_facts t).2.2.2.2.2.2.1]
    omega)
  rw [e]
  exact (cast_eq _ _).symm

/-- An index of the array is in point `t`'s block iff each coordinate is in the block's range on its axis. -/
theorem mem_blk (t : Fin cfg0.N) (i : S16384x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v9).slice (win0_3.rect t)).set ↔ _
  rw [View.set_slice_whole, Rect.mem_set_unit]
  exact Iff.rfl

/-- Every index of the array is in the block some grid row's last point writes back. -/
theorem cover (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 128 := N_0
  have ht : (i 0).val / 2048 * 16 + 15 < cfg0.N := by rw [hN]; omega
  refine ⟨⟨(i 0).val / 2048 * 16 + 15, ht⟩, (flush0_3 _).mpr (by show ((i 0).val / 2048 * 16 + 15) % 16 = 15; omega), ?_⟩
  rw [mem_blk]
  obtain ⟨-, -, -, -, -, -, e0, e1⟩ := idx_facts ⟨(i 0).val / 2048 * 16 + 15, ht⟩
  intro a
  match a with
  | ⟨0, _⟩ =>
    show win0_3.index ⟨(i 0).val / 2048 * 16 + 15, ht⟩ (0 : Fin 2) * 2048 ≤ (i 0).val
      ∧ (i 0).val < win0_3.index ⟨(i 0).val / 2048 * 16 + 15, ht⟩ (0 : Fin 2) * 2048 + 2048
    rw [e0]
    show ((i 0).val / 2048 * 16 + 15) / 16 * 2048 ≤ (i 0).val ∧ (i 0).val < ((i 0).val / 2048 * 16 + 15) / 16 * 2048 + 2048
    omega
  | ⟨1, _⟩ =>
    show win0_3.index ⟨(i 0).val / 2048 * 16 + 15, ht⟩ (1 : Fin 2) * 1 ≤ (i 1).val
      ∧ (i 1).val < win0_3.index ⟨(i 0).val / 2048 * 16 + 15, ht⟩ (1 : Fin 2) * 1 + 1
    rw [e1]
    omega

/-- THE ARRAY the region leaves: every row's minimum of the cost. -/
theorem final (c : Dev nD) :
    (dats m 0 c).arrAt 3 cfg0.N = rowMin (V m c main_v7) (V m c main_v8) (V m c main_v6) :=
  (dats m 0 c).arrAt_eq_of_cover 3 _ (flushed_eq m c) cover

end Cert.KernelIdeal.RunningMin

end
-- ==== Proof.Spec.lean ====
/-
  The number both programs compute, as one function of the three argument arrays over the extended reals.

  For `X, Y : [16384, 512]` and `P : [16384]` write
      sq A i   = 0 + ∑_d A i d · A i d                      (a row's squared norm, summed from the literal zero)
      dot i j  = ∑_d X i d · Y j d
      kc i j   = (sq Y j − P j) − 2 · dot i j               (the cost WITHOUT the row's own term)
      rc i j   = ((sq X i + sq Y j) − 2 · dot i j) − P j    (the cost WITH it)
      kmin i   = min over all j, from ⊤, of kc i j
      loss     = (0 + ∑_i (kmin i + sq X i)) / 16384 + (0 + ∑_j P j) / 16384.
  One program takes each row's minimum of `rc`; the other takes `kmin` and adds `sq X i` afterwards. They agree
  (`ref_row`): `rc i j = sq X i + kc i j` by associativity and commutativity of `+` on the extended reals, a minimum
  from `⊤` commutes with adding a term that is not `⊥`, and a sum of squares from zero is not `⊥`. The divisions and the
  literals `0`, `2`, `16384` are the same on both sides and are never evaluated (only `0`, to know `sq` is not `⊥`).
  The last two lemmas re-index a sum over a one-axis index type, or over a column `[n, 1]`, by `Fin n`.
-/
import proofs.«171918_j26010321944637_2_alg».proof.Proof.RowMin
import Idealize.ShloMosaic.Lib.ValueIdx

noncomputable section

namespace Cert.Spec

open Idealize.ShloMosaic Idealize.ShloMosaic.ValueIdx Cert.RowMin

abbrev SXY : Shape := ⟨2, ![16384, 512]⟩
abbrev SP : Shape := ⟨1, ![16384]⟩

/-- The literals `0.0`, `2.0`, `16384.0`. -/
abbrev zero : EReal := Ideal.ofBits .f32 0x00000000#32
abbrev two : EReal := Ideal.ofBits .f32 0x40000000#32
abbrev count : EReal := Ideal.ofBits .f32 0x46800000#32

/-- A row's squared norm, summed from the literal zero. -/
def sq (A : SXY.Idx → EReal) (i : Fin 16384) : EReal := zero + ∑ d : Fin 512, A (ix2 i d) * A (ix2 i d)

theorem sq_ne_bot (A : SXY.Idx → EReal) (i : Fin 16384) : sq A i ≠ ⊥ := by
  unfold sq zero
  rw [Ideal.ofBits_zero_f32]
  exact sum_sq_ne_bot _ _ rfl

/-- The inner product of row `i` of `X` with row `j` of `Y`. -/
def dot (X Y : SXY.Idx → EReal) (i j : Fin 16384) : EReal := ∑ d : Fin 512, X (ix2 i d) * Y (ix2 j d)

/-- The cost without the row's own term. -/
def kc (X Y : SXY.Idx → EReal) (P : SP.Idx → EReal) (i j : Fin 16384) : EReal :=
  (sq Y j - P (ix1 j)) - two * dot X Y i j

/-- The cost with it. -/
def rc (X Y : SXY.Idx → EReal) (P : SP.Idx → EReal) (i j : Fin 16384) : EReal :=
  ((sq X i + sq Y j) - two * dot X Y i j) - P (ix1 j)

theorem rc_eq (X Y : SXY.Idx → EReal) (P : SP.Idx → EReal) (i j : Fin 16384) :
    rc X Y P i j = sq X i + kc X Y P i j :=
  cost_rearrange _ _ _ _

/-- A row's minimum of the cost without its own term. -/
def kmin (X Y : SXY.Idx → EReal) (P : SP.Idx → EReal) (i : Fin 16384) : EReal :=
  (Finset.univ : Finset (Fin 16384)).fold min ⊤ (kc X Y P i)

/-- A row's minimum of the cost with its own term is `kmin` plus that term. -/
theorem ref_row (X Y : SXY.Idx → EReal) (P : SP.Idx → EReal) (i : Fin 16384) :
    (Finset.univ : Finset (Fin 16384)).fold min ⊤ (rc X Y P i) = kmin X Y P i + sq X i :=
  row_law (sq X i) (sq_ne_bot X i) _ _ (rc_eq X Y P i)

/-- The result. -/
def loss (X Y : SXY.Idx → EReal) (P : SP.Idx → EReal) : EReal :=
  Ideal.div (zero + ∑ i : Fin 16384, (kmin X Y P i + sq X i)) count + Ideal.div (zero + ∑ j : SP.Idx, P j) count

/-! ## Sums over a one-axis index type and over a column, by `Fin n` -/

def idxEquiv1 {n : ℕ} : (⟨1, ![n]⟩ : Shape).Idx ≃ Fin n where
  toFun j := j 0
  invFun a := ix1 a
  left_inv j := (eq_ix1 j).symm
  right_inv _ := rfl

theorem sum_idx1 {M : Type*} [AddCommMonoid M] {n : ℕ} (f : (⟨1, ![n]⟩ : Shape).Idx → M) :
    ∑ j, f j = ∑ a : Fin n, f (ix1 a) :=
  Fintype.sum_equiv idxEquiv1 _ _ (fun j => congrArg f (eq_ix1 j))

theorem sum_col {M : Type*} [AddCommMonoid M] {n : ℕ} (f : (⟨2, ![n, 1]⟩ : Shape).Idx → M) :
    ∑ j, f j = ∑ a : Fin n, f (ix2 a (0 : Fin 1)) := by
  rw [sum_idx2]
  exact Finset.sum_congr rfl fun a _ => Fin.sum_univ_one _

end Cert.Spec

end
-- ==== Proof.KernelLoss.lean ====
/-
  The kernel's program, read: its result is `Spec.loss` of the three argument arrays.

  Before the region the host lines compute what the region's three operands hold: the two arguments themselves (a
  change of float format is the identity at the ideal values) and the bias row `sq Y j − P j`, reshaped to one row
  (`V_v7`, `V_v8`, `V_v6`); they also leave the column `sq X i` of squared row norms (`V_v2`). So the cost the
  region minimizes is `Spec.kc` (`kcost_eq`) and the array it leaves is `Spec.kmin`, row by row (`rowMin_at`). After
  the region the host lines add the column of squared norms, sum all 16384 entries from zero, divide by the count,
  and add the mean of `P` (`tail_eq`).
-/
import proofs.«171918_j26010321944637_2_alg».proof.Proof.RunningMin
import proofs.«171918_j26010321944637_2_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.KernelLoss

open Cert.KernelIdeal Cert.KernelIdeal.Gen Idealize.ShloMosaic.ValueIdx

variable (m : (ℓ : Loc nD τ sig) → Buf (Elt Ideal) ℓ)

/-- The three argument arrays on core `c`. -/
abbrev X (c : Dev nD) : FVec Ideal S16384x512 .f32 := m ((c.tc : Thread nD τ).loc main_arg0)
abbrev Y (c : Dev nD) : FVec Ideal S16384x512 .f32 := m ((c.tc : Thread nD τ).loc main_arg1)
abbrev P (c : Dev nD) : FVec Ideal S16384 .f32 := m ((c.tc : Thread nD τ).loc main_arg2)

/-! ## What the host lines before the region leave -/

theorem V_v7 (c : Dev nD) :
    V m c main_v7 = (truncf (F := Ideal) .bf16 (X m c) bitsLt_bf16_f32 : FVec Ideal S16384x512 .bf16) := by
  show StableHlo.after hostOps0 (fun b => m (c, b)) (Proc.devRef .tc main_v7) = _
  after_results

theorem V_v8 (c : Dev nD) :
    V m c main_v8 = (truncf (F := Ideal) .bf16 (Y m c) bitsLt_bf16_f32 : FVec Ideal S16384x512 .bf16) := by
  show StableHlo.after hostOps0 (fun b => m (c, b)) (Proc.devRef .tc main_v8) = _
  after_results

theorem V_v6 (c : Dev nD) :
    V m c main_v6 = (shapeCast S1x16384 (subf (Host.reduceAdd (F := Ideal) (mulf (Y m c) (Y m c))
      (constant (F := Ideal) S_ .f32 0x00000000#32) reducesTo_S16384x512_S16384_d1 h_S_) (P m c)) shapeCasts_S16384_S1x16384
        : FVec Ideal S1x16384 .f32) := by
  show StableHlo.after hostOps0 (fun b => m (c, b)) (Proc.devRef .tc main_v6) = _
  after_results
  rfl

theorem V_v2 (c : Dev nD) :
    V m c main_v2 = (broadcastInDim S16384x1 ![0] bcast_S16384_S16384x1_0 (Host.reduceAdd (F := Ideal) (mulf (X m c) (X m c))
      (constant (F := Ideal) S_ .f32 0x00000000#32) reducesTo_S16384x512_S16384_d1 h_S_) : FVec Ideal S16384x1 .f32) := by
  show StableHlo.after hostOps0 (fun b => m (c, b)) (Proc.devRef .tc main_v2) = _
  after_results

/-- A row's squared norm as the host sums it. -/
theorem rowSumSq_at (A : FVec Ideal S16384x512 .f32) (i : Fin 16384) :
    Host.reduceAdd (F := Ideal) (mulf A A) (constant (F := Ideal) S_ .f32 0x00000000#32) reducesTo_S16384x512_S16384_d1 h_S_ (ix1 i)
      = Spec.sq A i := by
  simp only [Host.reduceAdd, Ideal.hostReduceAdd_def]
  rw [Ideal.hostReduceAdd_single reducesTo_S16384x512_S16384_d1 (by decide)]
  unfold Spec.sq
  refine congrArg₂ (fun a s => a + s) rfl (Finset.sum_congr rfl fun k _ => ?_)
  exact congrArg (mulf A A) (funext fun a => Fin.ext (by match a with | ⟨0, _⟩ => rfl | ⟨1, _⟩ => rfl))

/-- The cost the region minimizes is the specification's. -/
theorem kcost_eq (c : Dev nD) (i j : Fin 16384) :
    RunningMin.kcost (V m c main_v7) (V m c main_v8) (V m c main_v6) i j = Spec.kc (X m c) (Y m c) (P m c) i j := by
  rw [V_v7, V_v8, V_v6]
  unfold RunningMin.kcost Spec.kc Spec.dot
  rw [shapeCast_a_1a_apply]
  show (Host.reduceAdd (F := Ideal) (mulf (Y m c) (Y m c)) (constant (F := Ideal) S_ .f32 0x00000000#32)
      reducesTo_S16384x512_S16384_d1 h_S_ (ix1 j) - P m c (ix1 j)) - _ = _
  rw [rowSumSq_at]
  rfl

/-- The array the region leaves is, row by row, the specification's minimum. -/
theorem rowMin_at (c : Dev nD) (a : Fin 16384) :
    RunningMin.rowMin (V m c main_v7) (V m c main_v8) (V m c main_v6) (ix2 a (0 : Fin 1)) = Spec.kmin (X m c) (Y m c) (P m c) a := by
  unfold RunningMin.rowMin Spec.kmin
  exact congrArg (Finset.fold min ⊤ · Finset.univ) (funext fun j => kcost_eq m c a j)

/-- The column of squared row norms. -/
theorem v2_at (c : Dev nD) (a : Fin 16384) : (V m c main_v2 : FVec Ideal S16384x1 .f32) (ix2 a (0 : Fin 1)) = Spec.sq (X m c) a := by
  rw [V_v2]
  refine (broadcastInDim_apply _ bcast_S16384_S16384x1_0 _ (ix2 a (0 : Fin 1)) (ix1 a) (fun b => match b with
    | ⟨0, _⟩ => by show a.val = if (16384 : Nat) = 1 then 0 else a.val; rw [if_neg (by decide)])).trans ?_
  exact rowSumSq_at (X m c) a

/-! ## The host lines after the region -/

/-- A sum of a whole column from zero. -/
theorem total_col (v : FVec Ideal S16384x1 .f32) (i : S_.Idx) :
    Host.reduceAdd (F := Ideal) v (constant (F := Ideal) S_ .f32 0x00000000#32) reducesTo_S16384x1_S_d0_1 h_S_ i
      = Spec.zero + ∑ a : Fin 16384, v (ix2 a (0 : Fin 1)) := by
  simp only [Host.reduceAdd, Ideal.hostReduceAdd_def]
  rw [Ideal.hostReduceAdd_total reducesTo_S16384x1_S_d0_1 (fun b => b.elim0) v _ i, Spec.sum_col]
  rfl

/-- A sum of a whole vector from zero. -/
theorem total_vec (v : FVec Ideal S16384 .f32) (i : S_.Idx) :
    Host.reduceAdd (F := Ideal) v (constant (F := Ideal) S_ .f32 0x00000000#32) reducesTo_S16384_S_d0 h_S_ i
      = Spec.zero + ∑ j : S16384.Idx, v j := by
  simp only [Host.reduceAdd, Ideal.hostReduceAdd_def]
  rw [Ideal.hostReduceAdd_total reducesTo_S16384_S_d0 (fun b => b.elim0) v _ i]
  rfl

/-- THE KERNEL PROGRAM'S RESULT: what the lines after the region leave in the result buffer. -/
theorem tail_eq (c : Dev nD) :
    Pipeline.afterTail₀ cfgs (dats m) 0 (V0 m) [hostOps1] c main_v15 = fun _ => Spec.loss (X m c) (Y m c) (P m c) := by
  have h9 : Pipeline.withArrays (cfgs 0).spec c (V0 m c) (fun w => (dats m 0 c).arrAt w (cfgs 0).N) (Proc.devRef .tc main_v9)
      = RunningMin.rowMin (V m c main_v7) (V m c main_v8) (V m c main_v6) :=
    (Pipeline.withArrays_arr spec0 launch0.win.arr_inj c _ _ 3).trans (RunningMin.final m c)
  have h2 : Pipeline.withArrays (cfgs 0).spec c (V0 m c) (fun w => (dats m 0 c).arrAt w (cfgs 0).N) (Proc.devRef .tc main_v2)
      = V m c main_v2 :=
    Pipeline.withArrays_of_ne _ c (V0 m c) _ main_v2 (by exact (by decide : ∀ w, Pipeline.arrRef spec0 w ≠ main_v2))
  have hP : Pipeline.withArrays (cfgs 0).spec c (V0 m c) (fun w => (dats m 0 c).arrAt w (cfgs 0).N) (Proc.devRef .tc main_arg2)
      = P m c :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v15) = _
  after_results
  rw [h9, h2, hP]
  funext i
  show Ideal.div (Host.reduceAdd (F := Ideal) (addf (RunningMin.rowMin (V m c main_v7) (V m c main_v8) (V m c main_v6)) (V m c main_v2))
        (constant (F := Ideal) S_ .f32 0x00000000#32) reducesTo_S16384x1_S_d0_1 h_S_ i) Spec.count
      + Ideal.div (Host.reduceAdd (F := Ideal) (P m c) (constant (F := Ideal) S_ .f32 0x00000000#32) reducesTo_S16384_S_d0 h_S_ i) Spec.count = _
  rw [total_col, total_vec]
  unfold Spec.loss
  refine congrArg₂ (fun a b => Ideal.div (Spec.zero + a) Spec.count + b) (Finset.sum_congr rfl fun a _ => ?_) rfl
  show RunningMin.rowMin (V m c main_v7) (V m c main_v8) (V m c main_v6) (ix2 a (0 : Fin 1)) + (V m c main_v2 : FVec Ideal S16384x1 .f32) (ix2 a (0 : Fin 1)) = _
  rw [rowMin_at, v2_at]

/-- THE RUN, READ: every weakly fair execution of the kernel's program ends with the result buffer at `Spec.loss` of the
    argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v15) = (fun _ => Spec.loss (X m c) (Y m c) (P m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelLoss

end
-- ==== Proof.RefLoss.lean ====
/-
  The reference, read: its result is `Spec.loss` of the three argument arrays.

  The reference builds the whole 16384 × 16384 cost matrix `rc i j = ((sq X i + sq Y j) − 2 · dot i j) − P j` from
  broadcasts of the two vectors of squared row norms, one matrix product against the transpose of `Y` and a broadcast
  of `P` (`v16_at`), takes each row's minimum from `+∞` (`v17_at`: a fold of `min` from `⊤`, which by `Spec.ref_row` is
  `kmin i + sq X i`), sums the rows from zero, divides by the count, and adds the mean of `P` (`ref_loss`).
-/
import proofs.«171918_j26010321944637_2_alg».proof.Proof.Gen.ReferenceIdeal.Read
import proofs.«171918_j26010321944637_2_alg».proof.Proof.Spec

noncomputable section

namespace Cert.ReferenceIdeal.RefLoss

open Cert.ReferenceIdeal Cert.ReferenceIdeal.Gen Cert.ReferenceIdeal.Read Idealize.ShloMosaic Idealize.ShloMosaic.ValueIdx

variable (x0 x1 : FVec Ideal S16384x512 .f32) (x2 : FVec Ideal S16384 .f32)

/-! ## The index maps of the reference's layout operations, at coordinates -/

theorem e6 (i j : Fin 16384) : idx_main_v6 (ix2 i j) = ix2 i (0 : Fin 1) :=
  funext fun a => Fin.ext (by match a with | ⟨0, _⟩ => rfl | ⟨1, _⟩ => rfl)
theorem e2 (i : Fin 16384) : idx_main_v2 (ix2 i (0 : Fin 1)) = ix1 i :=
  funext fun a => Fin.ext (by match a with | ⟨0, _⟩ => rfl)
theorem e1 (i : Fin 16384) (k : Fin 512) : idx_main_v1 (ix1 i) k = ix2 i k :=
  funext fun a => Fin.ext (by match a with | ⟨0, _⟩ => rfl | ⟨1, _⟩ => rfl)
theorem e7 (i j : Fin 16384) : idx_main_v7 (ix2 i j) = ix2 (0 : Fin 1) j :=
  funext fun a => Fin.ext (by match a with | ⟨0, _⟩ => rfl | ⟨1, _⟩ => rfl)
theorem e5 (j : Fin 16384) : idx_main_v5 (ix2 (0 : Fin 1) j) = ix1 j :=
  funext fun a => Fin.ext (by match a with | ⟨0, _⟩ => rfl)
theorem e4 (j : Fin 16384) (k : Fin 512) : idx_main_v4 (ix1 j) k = ix2 j k :=
  funext fun a => Fin.ext (by match a with | ⟨0, _⟩ => rfl | ⟨1, _⟩ => rfl)
theorem e15 (i j : Fin 16384) : idx_main_v15 (ix2 i j) = ix2 (0 : Fin 1) j :=
  funext fun a => Fin.ext (by match a with | ⟨0, _⟩ => rfl | ⟨1, _⟩ => rfl)
theorem e14 (j : Fin 16384) : idx_main_v14 (ix2 (0 : Fin 1) j) = ix1 j :=
  funext fun a => Fin.ext (by match a with | ⟨0, _⟩ => rfl)
theorem el10 (i j : Fin 16384) (k : Fin 512) : lidx_main_v10 (ix2 i j) k = ix2 i k :=
  funext fun a => Fin.ext (by match a with | ⟨0, _⟩ => rfl | ⟨1, _⟩ => rfl)
theorem er10 (i j : Fin 16384) (k : Fin 512) : ridx_main_v10 (ix2 i j) k = ix2 k j :=
  funext fun a => Fin.ext (by match a with | ⟨0, _⟩ => rfl | ⟨1, _⟩ => rfl)
theorem e9 (j : Fin 16384) (k : Fin 512) : idx_main_v9 (ix2 k j) = ix2 j k :=
  funext fun a => Fin.ext (by match a with | ⟨0, _⟩ => rfl | ⟨1, _⟩ => rfl)

/-- A row's squared norm as the reference sums it. -/
theorem v1_at (i : Fin 16384) : val_main_v1 (F := Ideal) x0 (ix1 i) = Spec.sq x0 i := by
  rw [val_main_v1_apply]
  simp only [val_main_v0_apply, e1]
  rfl

theorem v4_at (j : Fin 16384) : val_main_v4 (F := Ideal) x1 (ix1 j) = Spec.sq x1 j := by
  rw [val_main_v4_apply]
  simp only [val_main_v3_apply, e4]
  rfl

/-- The inner products. -/
theorem v10_at (i j : Fin 16384) : val_main_v10 (F := Ideal) x0 x1 (ix2 i j) = Spec.dot x0 x1 i j := by
  rw [val_main_v10_apply]
  simp only [val_main_v9_apply, el10, er10, e9]
  rfl

/-- The reference's cost matrix at `(i, j)`. -/
theorem v16_at (i j : Fin 16384) : val_main_v16 (F := Ideal) x0 x1 x2 (ix2 i j) = Spec.rc x0 x1 x2 i j := by
  rw [val_main_v16_apply, val_main_v13_apply, val_main_v8_apply, val_main_v12_apply, val_main_v15_apply, val_main_v14_apply,
    val_main_v6_apply, val_main_v2_apply, val_main_v7_apply, val_main_v5_apply, val_main_v11_apply,
    e6, e2, e7, e5, e15, e14, v1_at, v4_at, v10_at]
  rfl

/-- A row's minimum over all columns, from `+∞`, as the reference takes it. -/
theorem hostMin_at (y : FVec Ideal S16384x16384 .f32) (i : Fin 16384) :
    Host.reduce (FloatOps.minimumf (F := Ideal) (φ := .f32)) y (val_main_cst_2 (F := Ideal)) reducesTo_S16384x16384_S16384_d1 h_S_ (ix1 i)
      = (Finset.univ : Finset (Fin 16384)).fold min ⊤ (fun j => y (ix2 i j)) := by
  have h : S16384x16384.Reduces [1] S16384 := by decide
  refine (Host.reduce_eq_fold_single _ y _ reducesTo_S16384x16384_S16384_d1 h h_S_ (ix1 i)).trans ?_
  have e : (y ∘ h.lift (ix1 i)) = fun j : Fin 16384 => y (ix2 i j) :=
    funext fun j => congrArg y (funext fun c => Fin.ext (by
      match c with
      | ⟨0, _⟩ => rfl
      | ⟨1, _⟩ => rfl))
  have eI : val_main_cst_2 (F := Ideal) (Shape.Idx.first h_S_) = (⊤ : EReal) := by
    show Ideal.ofBits .f32 0x7F800000#32 = ⊤
    simp [Ideal.ofBits, Ideal.ieee]
  rw [e, eI]
  rfl

theorem v17_at (i : Fin 16384) : val_main_v17 (F := Ideal) x0 x1 x2 (ix1 i) = Spec.kmin x0 x1 x2 i + Spec.sq x0 i := by
  unfold val_main_v17
  rw [hostMin_at, ← Spec.ref_row]
  exact congrArg (Finset.fold min ⊤ · Finset.univ) (funext fun j => v16_at x0 x1 x2 i j)

/-- THE REFERENCE'S RESULT. -/
theorem ref_loss : val_main_v22 (F := Ideal) x0 x1 x2 = fun _ => Spec.loss x0 x1 x2 := by
  funext i
  rw [val_main_v22_apply, val_main_v19_apply, val_main_v21_apply, val_main_v18_apply, val_main_v20_apply,
    Spec.sum_idx1 (val_main_v17 (F := Ideal) x0 x1 x2)]
  simp only [v17_at]
  rfl

end Cert.ReferenceIdeal.RefLoss

end
-- ==== Proof.lean ====
/-
  The claim: a Pallas kernel for the semi-dual loss of a squared-distance cost against its jnp reference.

  For `X, Y : [16384, 512]` and `P : [16384]` both programs compute, over the extended reals,
      loss = mean_i ( min_j ( |X_i|² + |Y_j|² − 2 X_i·Y_j − P_j ) ) + mean_j P_j.
  The reference forms the whole cost matrix and takes row minima. The kernel's program hoists the row's own term
  `|X_i|²` out of the minimum: the host forms the bias row `|Y_j|² − P_j`; the kernel walks an 8 × 16 grid of
  2048 × 1024 tiles of `bias_j − 2 X_i·Y_j`, keeping each row's running minimum in the output block across the 16
  tiles of a grid row (reset to `+∞` at the first); the host adds `|X_i|²` afterwards. The two agree at the ideal
  values because `+` on the extended reals is associative, commutative and monotone, a minimum from `⊤` commutes with
  adding a term that is not `⊥`, and a sum of squares is never `⊥` — so the precondition (finite inputs) is not used.

  Modules: `RowMin` (minima and folds on `EReal`), `Spec` (the function `loss` and the law `ref_row`), `TileCost` (the
  body's store at a row), `Cases` (what each case of the body leaves), `RunningMin` (the induction over the grid and
  the array the region leaves), `KernelLoss` (the host lines around the region; the kernel program's run), `RefLoss`
  (the reference's result). The three frames are the generated ones; the ideal pass rewrote nothing.
-/
import proofs.«171918_j26010321944637_2_alg».proof.Defs
import proofs.«171918_j26010321944637_2_alg».proof.Proof.Gen.Kernel
import proofs.«171918_j26010321944637_2_alg».proof.Proof.Gen.Kernel.Skeleton
import proofs.«171918_j26010321944637_2_alg».proof.Proof.Gen.Kernel.Launch
import proofs.«171918_j26010321944637_2_alg».proof.Proof.Gen.Kernel.Points
import proofs.«171918_j26010321944637_2_alg».proof.Proof.Gen.Kernel.Frame
import proofs.«171918_j26010321944637_2_alg».proof.Proof.Gen.KernelIdeal
import proofs.«171918_j26010321944637_2_alg».proof.Proof.Gen.KernelIdeal.Skeleton
import proofs.«171918_j26010321944637_2_alg».proof.Proof.Gen.KernelIdeal.Launch
import proofs.«171918_j26010321944637_2_alg».proof.Proof.Gen.KernelIdeal.Points
import proofs.«171918_j26010321944637_2_alg».proof.Proof.Gen.KernelIdeal.Frame
import proofs.«171918_j26010321944637_2_alg».proof.Proof.Gen.ReferenceIdeal
import proofs.«171918_j26010321944637_2_alg».proof.Proof.Gen.Pre_finite_inputs
import proofs.«171918_j26010321944637_2_alg».proof.Proof.Gen.ReferenceIdeal.Run
import proofs.«171918_j26010321944637_2_alg».proof.Proof.Gen.ReferenceIdeal.Read
import proofs.«171918_j26010321944637_2_alg».proof.Proof.KernelLoss
import proofs.«171918_j26010321944637_2_alg».proof.Proof.RefLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at `Spec.loss` of argument arrays that agree. -/
theorem algebraic : Cert.algebraic_KernelIdeal_ReferenceIdeal := by
  intro m ρ m' ρ' _ hagree
  refine ⟨fun c => fun _ => Cert.Spec.loss (Cert.KernelIdeal.KernelLoss.X m c) (Cert.KernelIdeal.KernelLoss.Y m c)
    (Cert.KernelIdeal.KernelLoss.P m c), Cert.KernelIdeal.KernelLoss.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.RefLoss.ref_loss,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
